-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S64x2 : Shape := ⟨2, ![64, 2]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel

variable [Facts]

def fn {F : FTy → Type} [FloatOps F] (main_arg0 : FVec F S64x2048x128 .f32) (main_arg1 : IVec S64x2 32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  main_v3
-- ==== Kernel.lean ====
abbrev S64x2048x128 : Shape := ⟨3, ![64, 2048, 128]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x128 : Shape := ⟨3, ![64, 2, 128]⟩
abbrev S4x2048x128 : Shape := ⟨3, ![4, 2048, 128]⟩
abbrev S4x2x128 : Shape := ⟨3, ![4, 2, 128]⟩
abbrev S4x2048x2 : Shape := ⟨3, ![4, 2048, 2]⟩
abbrev S4x2048 : Shape := ⟨2, ![4, 2048]⟩
abbrev S4x2048x1 : Shape := ⟨3, ![4, 2048, 1]⟩

abbrev nBuf : Space → Nat
  | .hbm => 26
  | .vmem => 6
  | .smem => 0
  | _ => 0

abbrev bufTy : (tb : Table) → Fin (tcTables nBuf tb) → BufTy
  | .hbm, ⟨0, _⟩ => ⟨S64x2048x128, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x128, .f32⟩
  | .hbm, ⟨21, _⟩ => ⟨S64x2x128, .i1⟩
  | .hbm, ⟨22, _⟩ => ⟨S_, .f32⟩
  | .hbm, ⟨23, _⟩ => ⟨S64x2x128, .f32⟩
  | .hbm, ⟨24, _⟩ => ⟨S64x2x128, .f32⟩
  | .hbm, ⟨25, _⟩ => ⟨S64x2048x128, .f32⟩
  | .local _ .vmem, ⟨0, _⟩ => ⟨S4x2048x128, .f32⟩
  | .local _ .vmem, ⟨1, _⟩ => ⟨S4x2048x128, .f32⟩
  | .local _ .vmem, ⟨2, _⟩ => ⟨S4x2x128, .f32⟩
  | .local _ .vmem, ⟨3, _⟩ => ⟨S4x2x128, .f32⟩
  | .local _ .vmem, ⟨4, _⟩ => ⟨S4x2048x128, .f32⟩
  | .local _ .vmem, ⟨5, _⟩ => ⟨S4x2048x128, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x128_0_1 : S64x2.BroadcastsInDim S64x2x128 (![0, 1] : Fin 2 → Fin S64x2x128.rank)
  bcast_S_S64x2x128 : S_.BroadcastsInDim S64x2x128 (![] : Fin 0 → Fin S64x2x128.rank)
  inb_S4x2048x128_S4x2048x128_0_0_0 : ∀ a, (![0, 0, 0] : Fin 3 → Nat) a + S4x2048x128.size a ≤ S4x2048x128.size a
  h_S4x2048x128 : 0 < S4x2048x128.numel
  bitsLt_bf16_f32 : FTy.bits .bf16 < FTy.bits .f32
  inb_S4x2x128_S4x2x128_0_0_0 : ∀ a, (![0, 0, 0] : Fin 3 → Nat) a + S4x2x128.size a ≤ S4x2x128.size a
  h_S4x2x128 : 0 < S4x2x128.numel
  shapeCasts_S4x2x128_S4x2x128 : S4x2x128.ShapeCasts S4x2x128
  reduces_S4x2048x2_S4x2048 : S4x2048x2.Reduces [2] S4x2048
  shapeCasts_S4x2048_S4x2048x1 : S4x2048.ShapeCasts S4x2048x1
  broadcasts_S4x2048x1_S4x2048x128 : S4x2048x1.Broadcasts S4x2048x128
  gather_S64x2048x128_S64x2x1_S64x2x128_2_1_0_0_1_2_11128_wf : GatherDims.WF S64x2048x128 S64x2x1 S64x2x128 [2] [1] [0] [1] [0] 2 ![1, 1, 128]
  dot_S4x2048x128_S4x2x128_S4x2048x2_2_2_1_1_0_0_wf : DotDims.WF S4x2048x128 S4x2x128 S4x2048x2 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S64x2048x128.size a
  hwx0_0 : ∀ i : grid0.Coords, EltTy.bits .f32 = 32 ∨ (Rect.block (s := S64x2048x128) S4x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x128.size a ≤ S64x2x128.size a
  hwx0_1 : ∀ i : grid0.Coords, EltTy.bits .f32 = 32 ∨ (Rect.block (s := S64x2x128) S4x2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x128.size a ≤ S64x2048x128.size a
  hwx0_2 : ∀ i : grid0.Coords, EltTy.bits .f32 = 32 ∨ (Rect.block (s := S64x2048x128) S4x2048x128.size (cc0_transform_2 i) (hinb0_2 i)).WholeWords (EltTy.packing .f32)

variable [Facts₀]

def gather_S64x2048x128_S64x2x1_S64x2x128_2_1_0_0_1_2_11128 : GatherDims S64x2048x128 S64x2x1 S64x2x128 where
  offsetDims := [2]
  collapsedSliceDims := [1]
  operandBatchingDims := [0]
  startIndicesBatchingDims := [0]
  startIndexMap := [1]
  indexVectorDim := 2
  sliceSizes := ![1, 1, 128]
  wf := gather_S64x2048x128_S64x2x1_S64x2x128_2_1_0_0_1_2_11128_wf
def dot_S4x2048x128_S4x2x128_S4x2048x2_2_2_1_1_0_0 : DotDims S4x2048x128 S4x2x128 S4x2048x2 where
  lhsContracting := [2]
  rhsContracting := [2]
  lhsNonContracting := [1]
  rhsNonContracting := [1]
  lhsBatch := [0]
  rhsBatch := [0]
  wf := dot_S4x2048x128_S4x2x128_S4x2048x2_2_2_1_1_0_0_wf

abbrev win0_0 : Pipeline.Window sig grid0 :=
  Pipeline.Window.ofSpec (Memref.whole main_arg0) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x2048x128 : Shape := ⟨3, ![64, 2048, 128]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x128 : Shape := ⟨3, ![64, 2, 128]⟩
abbrev S64x2x2048 : Shape := ⟨3, ![64, 2, 2048]⟩
abbrev S64x2048 : Shape := ⟨2, ![64, 2048]⟩
abbrev S64x2048x1 : Shape := ⟨3, ![64, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x128, .f32⟩
  | .hbm, ⟨21, _⟩ => ⟨S64x2x128, .i1⟩
  | .hbm, ⟨22, _⟩ => ⟨S_, .f32⟩
  | .hbm, ⟨23, _⟩ => ⟨S64x2x128, .f32⟩
  | .hbm, ⟨24, _⟩ => ⟨S64x2x128, .f32⟩
  | .hbm, ⟨25, _⟩ => ⟨S64x2x2048, .f32⟩
  | .hbm, ⟨26, _⟩ => ⟨S_, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S64x2048x1, .f32⟩
  | .hbm, ⟨32, _⟩ => ⟨S64x2048x128, .f32⟩
  | .hbm, ⟨33, _⟩ => ⟨S64x2048x128, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x128_0_1 : S64x2.BroadcastsInDim S64x2x128 (![0, 1] : Fin 2 → Fin S64x2x128.rank)
  bcast_S_S64x2x128 : S_.BroadcastsInDim S64x2x128 (![] : Fin 0 → Fin S64x2x128.rank)
  reducesTo_S64x2x2048_S64x2048_d1 : S64x2x2048.ReducesTo [1] S64x2048
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x128_0_1_2 : S64x2048x1.BroadcastsInDim S64x2048x128 (![0, 1, 2] : Fin 3 → Fin S64x2048x128.rank)
  gather_S64x2048x128_S64x2x1_S64x2x128_2_1_0_0_1_2_11128_wf : GatherDims.WF S64x2048x128 S64x2x1 S64x2x128 [2] [1] [0] [1] [0] 2 ![1, 1, 128]
  dot_S64x2x128_S64x2048x128_S64x2x2048_2_2_1_1_0_0_wf : DotDims.WF S64x2x128 S64x2048x128 S64x2x2048 [2] [2] [1] [1] [0] [0]

variable [Facts₀]

def gather_S64x2048x128_S64x2x1_S64x2x128_2_1_0_0_1_2_11128 : GatherDims S64x2048x128 S64x2x1 S64x2x128 where
  offsetDims := [2]
  collapsedSliceDims := [1]
  operandBatchingDims := [0]
  startIndicesBatchingDims := [0]
  startIndexMap := [1]
  indexVectorDim := 2
  sliceSizes := ![1, 1, 128]
  wf := gather_S64x2048x128_S64x2x1_S64x2x128_2_1_0_0_1_2_11128_wf
def dot_S64x2x128_S64x2048x128_S64x2x2048_2_2_1_1_0_0 : DotDims S64x2x128 S64x2048x128 S64x2x2048 where
  lhsContracting := [2]
  rhsContracting := [2]
  lhsNonContracting := [1]
  rhsNonContracting := [1]
  lhsBatch := [0]
  rhsBatch := [0]
  wf := dot_S64x2x128_S64x2048x128_S64x2x2048_2_2_1_1_0_0_wf

class Facts : Prop extends Facts₀ where

variable [Facts]
-- ==== Proof.Spec.lean ====
/-
  The function both programs compute, over the extended reals.

  A batch of 64 sentences, each 2048 rows of 128 features: `x (b, l, d)`. Each sentence comes with two
  entity rows `E (b, k, d)`, `k < 2` (rows of the same sentence picked out by an index array; how they
  are picked is the same text in both programs and is never opened here). The score of row `l` is the
  sum over the two entities of the inner product of the entity row with the sentence row,
      score (b, l) = ∑ k < 2, ∑ d < 128, E (b, k, d) · x (b, l, d),
  and the result scales every feature of the row by half the score:
      weighted (b, l, d) = x (b, l, d) · (score (b, l) / 2).
  The divisor is kept as the word both programs print for `2.0`; it is never evaluated.
-/
import Idealize.ShloMosaic.PureOps.Ideal
import Idealize.ShloMosaic.Lib.ValueIdx

noncomputable section

namespace Cert.EntityAttention

open Idealize.ShloMosaic

/-- The sentences' shape, [64, 2048, 128]. -/
abbrev Sent : Shape := ⟨3, ![64, 2048, 128]⟩
/-- The entity rows' shape, [64, 2, 128]. -/
abbrev Ent : Shape := ⟨3, ![64, 2, 128]⟩

/-- Entity `k`'s feature `d` in the sentence that the index `i` lies in: (i₀, k, d). -/
abbrev entAt (i : Sent.Idx) (k : Fin 2) (d : Fin 128) : Ent.Idx := fun a => match a with
  | ⟨0, _⟩ => ⟨(i 0).val, (i 0).isLt⟩
  | ⟨1, _⟩ => ⟨k.val, k.isLt⟩
  | ⟨2, _⟩ => ⟨d.val, d.isLt⟩

/-- Feature `d` of the row that the index `i` lies in: (i₀, i₁, d). -/
abbrev rowAt (i : Sent.Idx) (d : Fin 128) : Sent.Idx := fun a => match a with
  | ⟨0, _⟩ => ⟨(i 0).val, (i 0).isLt⟩
  | ⟨1, _⟩ => ⟨(i 1).val, (i 1).isLt⟩
  | ⟨2, _⟩ => ⟨d.val, d.isLt⟩

/-- The score of the row that `i` lies in: the two entities' inner products with the row, added. -/
def score (x : Sent.Idx → EReal) (E : Ent.Idx → EReal) (i : Sent.Idx) : EReal :=
  ∑ k : Fin 2, ∑ d : Fin 128, E (entAt i k d) * x (rowAt i d)

/-- Every feature of a row scaled by half the row's score. -/
def weighted (x : Sent.Idx → EReal) (E : Ent.Idx → EReal) : Sent.Idx → EReal := fun i =>
  x i * Ideal.div (score x E i) (Ideal.ofBits .f32 0x40000000#32)

end Cert.EntityAttention

end
-- ==== Proof.RefValue.lean ====
/-
  The reference, read at an index, is `weighted` of the sentences and of the entity rows it gathers.

  Reading the reference's last stage outermost first: the product with the broadcast of the row's
  value; that value is the host's quotient by the word for 2.0 of the sum, from the zero word, over the
  two entities of the `dot_general`'s entry, which is the sum over the 128 features of an entity entry
  times a sentence entry. The zero word is the extended real 0, so the initial value drops.
-/
import proofs.«179374_j72507637891612_2_alg».proof.Proof.Gen.ReferenceIdeal.Read
import proofs.«179374_j72507637891612_2_alg».proof.Proof.Spec

noncomputable section

namespace Cert.ReferenceIdeal.RefValue

open Cert.ReferenceIdeal Cert.ReferenceIdeal.Gen Cert.ReferenceIdeal.Read Idealize.ShloMosaic
open Cert.EntityAttention

/-- The reference's result stage is `weighted` of the sentences and of the gathered entity rows
    (its stage `val_main_v1`, which stays closed). -/
theorem reference_eq (x0 : (⟨S64x2048x128, .f32⟩ : BufTy).Contents (Elt Ideal))
    (x1 : (⟨S64x2, .i32⟩ : BufTy).Contents (Elt Ideal)) :
    val_main_v8 (F := Ideal) x0 x1 = weighted x0 (val_main_v1 (F := Ideal) x0 x1) := by
  funext i
  have hl : ∀ (k : Fin 2) (d : Fin 128),
      lidx_main_v2 (idx_main_v3 (idx_main_v6 (idx_main_v7 i)) k) d = entAt i k d := fun k d =>
    funext fun a => Fin.ext (by match a with | ⟨0, _⟩ => rfl | ⟨1, _⟩ => rfl | ⟨2, _⟩ => rfl)
  have hr : ∀ (k : Fin 2) (d : Fin 128),
      ridx_main_v2 (idx_main_v3 (idx_main_v6 (idx_main_v7 i)) k) d = rowAt i d := fun k d =>
    funext fun a => Fin.ext (by match a with | ⟨0, _⟩ => rfl | ⟨1, _⟩ => rfl | ⟨2, _⟩ => rfl)
  rw [val_main_v8_apply, val_main_v7_apply, val_main_v6_apply, val_main_v5_apply, val_main_v3_apply,
    val_main_v4_apply, val_main_cst_0_apply, val_main_cst_apply]
  simp only [val_main_v2_apply, hl, hr]
  unfold weighted score
  simp only [Ideal.mulf_def, Ideal.hostDivf_def, Ideal.ofBits_def, Ideal.ofBits_zero_f32, zero_add]

end Cert.ReferenceIdeal.RefValue

end
-- ==== Proof.EntityRows.lean ====
/-
  The entity rows the kernel's region finds.

  Before the region the kernel's program picks the entity rows out of the sentences on the host, by the
  same operations the reference applies (the index array widened, negative entries wrapped by 2048, the
  rows gathered, entries whose index falls outside [0, 2047] replaced). So the array the region's second
  window reads is the reference's gathered stage of the two argument arrays; that stage stays closed.
-/
import proofs.«179374_j72507637891612_2_alg».proof.Proof.Gen.KernelIdeal.Frame
import proofs.«179374_j72507637891612_2_alg».proof.Proof.Gen.ReferenceIdeal.Read
import Idealize.ShloMosaic.Lib.StableHlo.Run

noncomputable section

namespace Cert.KernelIdeal.EntityRows

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- When the region is entered, the entity-row array holds the reference's gathered stage of the
    argument arrays as launched. -/
theorem entity_rows (c : Dev nD) :
    (V m c main_v1 : S64x2x128.Idx → EReal)
      = Cert.ReferenceIdeal.Read.val_main_v1 (F := Ideal) (m ((c : Thread nD τ).loc main_arg0))
          (m ((c : Thread nD τ).loc main_arg1)) := by
  dsimp only [V]
  simp only [hostOps0, hostOps0_1, hostOps0_2, List.flatten_cons, List.flatten_nil, List.append_nil,
    List.cons_append, List.nil_append]
  after_results_simp <;> rfl

end Cert.KernelIdeal.EntityRows

end
-- ==== Proof.BlockValue.lean ====
/-
  What the kernel body stores, read at one entry of a block.

  A block is four sentences: `X (p, q, r)`, `p < 4`, with their entity rows `Eb (p, k, d)`. The body
  multiplies the block, batched over the four sentences, against the entity rows contracted along the
  features — entry (p, q, k) of the product is ∑ d, X (p, q, d) · Eb (p, k, d), the accumulator being the
  zero splat —, adds the two entities' entries of each row (a lane sum along the last axis), keeps the
  row sums as a [4, 2048, 1] column, divides by the splat of the word for 2.0, broadcasts the column over
  the 128 features and multiplies the block by it. Rounding the operands to bf16 is the identity on
  extended reals, and so is the cast of the entity block to its own shape.
-/
import proofs.«179374_j72507637891612_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The layout steps at an index -/

/-- A [4, 2048, 1] column broadcast over the 128 features reads, at (p, q, r), the column's entry (p, q, 0). -/
theorem column_broadcast_apply {α : Type} (v : S4x2048x1.Idx → α) (h : S4x2048x1.Broadcasts S4x2048x128)
    (p : Fin 4) (q : Fin 2048) (r : Fin 128) :
    broadcastTo S4x2048x128 v h (ix3 p q r) = v (ix3 p q (0 : Fin 1)) :=
  broadcastTo_apply v h (ix3 p q r) (ix3 p q (0 : Fin 1)) (fun a => by
    match a with
    | ⟨0, _⟩ => show p.val = if (4 : Nat) = 1 then 0 else p.val; rw [if_neg (by decide)]
    | ⟨1, _⟩ => show q.val = if (2048 : Nat) = 1 then 0 else q.val; rw [if_neg (by decide)]
    | ⟨2, _⟩ => show 0 = if (1 : Nat) = 1 then 0 else r.val; rw [if_pos rfl])

/-- The row values [4, 2048] kept as a [4, 2048, 1] column read, at (p, q, u), the value of row (p, q). -/
theorem column_cast_apply {α : Type} (v : S4x2048.Idx → α) (h : S4x2048.ShapeCasts S4x2048x1)
    (p : Fin 4) (q : Fin 2048) (u : Fin 1) :
    shapeCast S4x2048x1 v h (ix3 p q u) = v (ix2 p q) :=
  shapeCast_apply v h (ix3 p q u) (ix2 p q) (by
    rw [Shape.rowMajor_val_two, Shape.rowMajor_val_three]
    show p.val * 2048 + q.val = (p.val * 2048 + q.val) * 1 + u.val
    have := u.isLt
    omega)

/-- The lane sum along the last axis of a [4, 2048, 2] array, at row (p, q): its two entries added. -/
theorem pair_sum_apply (src : FVec Ideal S4x2048x2 .f32) (h : S4x2048x2.Reduces [2] S4x2048) (hφ : FKind.Formats .f32)
    (hacc : (0x00000000#32 : BitVec 32) = FKind.add.neutral .f32 hφ) (p : Fin 4) (q : Fin 2048) :
    multiReduction .add [2] S4x2048 src 0x00000000#32 h hφ hacc (ix2 p q) = ∑ k : Fin 2, src (ix3 p q k) := by
  refine (Ideal.multiReduction_add_single src _ h hφ hacc (ix2 p q)).trans ?_
  refine Finset.sum_congr rfl fun k _ => congrArg src ?_
  funext a
  apply Fin.ext
  match a with
  | ⟨0, _⟩ => rfl
  | ⟨1, _⟩ => rfl
  | ⟨2, _⟩ => rfl

/-! ## The batched product at an entry -/

theorem lhs_0 (j : S4x2048x2.Idx) (c : dot_S4x2048x128_S4x2x128_S4x2048x2_2_2_1_1_0_0.contr.Idx) :
    (dot_S4x2048x128_S4x2x128_S4x2048x2_2_2_1_1_0_0.lhsIdx j c 0).val = (j 0).val := by
  unfold DotDims.lhsIdx
  rw [dif_pos (show (0 : Fin S4x2048x128.rank) ∈ dot_S4x2048x128_S4x2x128_S4x2048x2_2_2_1_1_0_0.lhsBatch by decide)]
  rfl
theorem lhs_1 (j : S4x2048x2.Idx) (c : dot_S4x2048x128_S4x2x128_S4x2048x2_2_2_1_1_0_0.contr.Idx) :
    (dot_S4x2048x128_S4x2x128_S4x2048x2_2_2_1_1_0_0.lhsIdx j c 1).val = (j 1).val := by
  unfold DotDims.lhsIdx
  rw [dif_neg (show ¬(1 : Fin S4x2048x128.rank) ∈ dot_S4x2048x128_S4x2x128_S4x2048x2_2_2_1_1_0_0.lhsBatch by decide),
    dif_pos (show (1 : Fin S4x2048x128.rank) ∈ dot_S4x2048x128_S4x2x128_S4x2048x2_2_2_1_1_0_0.lhsNonContracting by decide)]
  rfl
theorem lhs_2 (j : S4x2048x2.Idx) (c : dot_S4x2048x128_S4x2x128_S4x2048x2_2_2_1_1_0_0.contr.Idx) :
    (dot_S4x2048x128_S4x2x128_S4x2048x2_2_2_1_1_0_0.lhsIdx j c 2).val = (c ⟨0, by decide⟩).val :=
  dot_S4x2048x128_S4x2x128_S4x2048x2_2_2_1_1_0_0.lhsIdx_val_of_single rfl j c
theorem rhs_0 (j : S4x2048x2.Idx) (c : dot_S4x2048x128_S4x2x128_S4x2048x2_2_2_1_1_0_0.contr.Idx) :
    (dot_S4x2048x128_S4x2x128_S4x2048x2_2_2_1_1_0_0.rhsIdx j c 0).val = (j 0).val := by
  unfold DotDims.rhsIdx
  rw [dif_pos (show (0 : Fin S4x2x128.rank) ∈ dot_S4x2048x128_S4x2x128_S4x2048x2_2_2_1_1_0_0.rhsBatch by decide)]
  rfl
theorem rhs_1 (j : S4x2048x2.Idx) (c : dot_S4x2048x128_S4x2x128_S4x2048x2_2_2_1_1_0_0.contr.Idx) :
    (dot_S4x2048x128_S4x2x128_S4x2048x2_2_2_1_1_0_0.rhsIdx j c 1).val = (j 2).val := by
  unfold DotDims.rhsIdx
  rw [dif_neg (show ¬(1 : Fin S4x2x128.rank) ∈ dot_S4x2048x128_S4x2x128_S4x2048x2_2_2_1_1_0_0.rhsBatch by decide),
    dif_pos (show (1 : Fin S4x2x128.rank) ∈ dot_S4x2048x128_S4x2x128_S4x2048x2_2_2_1_1_0_0.rhsNonContracting by decide)]
  rfl
theorem rhs_2 (j : S4x2048x2.Idx) (c : dot_S4x2048x128_S4x2x128_S4x2048x2_2_2_1_1_0_0.contr.Idx) :
    (dot_S4x2048x128_S4x2x128_S4x2048x2_2_2_1_1_0_0.rhsIdx j c 2).val = (c ⟨0, by decide⟩).val :=
  dot_S4x2048x128_S4x2x128_S4x2048x2_2_2_1_1_0_0.rhsIdx_val_of_single rfl j c

/-- Entry (p, q, k) of the batched product into the zero splat: the inner product over the 128 features of
    row (p, q) of the left operand with row (p, k) of the right one. -/
theorem product_apply (L : FVec Ideal S4x2048x128 .bf16) (R : FVec Ideal S4x2x128 .bf16)
    (p : Fin 4) (q : Fin 2048) (k : Fin 2) :
    matmul dot_S4x2048x128_S4x2x128_S4x2048x2_2_2_1_1_0_0 none L R (constant (F := Ideal) S4x2048x2 .f32 0x00000000#32) (ix3 p q k)
      = ∑ d : Fin 128, L (ix3 p q d) * R (ix3 p k d) := by
  refine (Ideal.matmul_constant_zero_apply dot_S4x2048x128_S4x2x128_S4x2048x2_2_2_1_1_0_0 none L R (ix3 p q k)).trans ?_
  rw [← Equiv.sum_comp (contrEquiv1 dot_S4x2048x128_S4x2x128_S4x2048x2_2_2_1_1_0_0 128 rfl rfl).symm]
  refine Finset.sum_congr rfl fun d _ => ?_
  have hd := contrEquiv1_symm_val dot_S4x2048x128_S4x2x128_S4x2048x2_2_2_1_1_0_0 128 rfl rfl d
  have el : dot_S4x2048x128_S4x2x128_S4x2048x2_2_2_1_1_0_0.lhsIdx (ix3 p q k)
      ((contrEquiv1 dot_S4x2048x128_S4x2x128_S4x2048x2_2_2_1_1_0_0 128 rfl rfl).symm d) = ix3 p q d :=
    funext fun a => Fin.ext (by
      match a with
      | ⟨0, _⟩ => exact lhs_0 _ _
      | ⟨1, _⟩ => exact lhs_1 _ _
      | ⟨2, _⟩ => exact (lhs_2 _ _).trans hd)
  have er : dot_S4x2048x128_S4x2x128_S4x2048x2_2_2_1_1_0_0.rhsIdx (ix3 p q k)
      ((contrEquiv1 dot_S4x2048x128_S4x2x128_S4x2048x2_2_2_1_1_0_0 128 rfl rfl).symm d) = ix3 p k d :=
    funext fun a => Fin.ext (by
      match a with
      | ⟨0, _⟩ => exact rhs_0 _ _
      | ⟨1, _⟩ => exact rhs_1 _ _
      | ⟨2, _⟩ => exact (rhs_2 _ _).trans hd)
  rw [el, er]

/-! ## The stored value at an entry -/

/-- The body's stored value at entry (p, q, r) of the block: the entry of the sentence block times the
    quotient by the word for 2.0 of the row's two inner products with its sentence's entity rows. -/
theorem stored_apply (X : FVec Ideal S4x2048x128 .f32) (Eb : FVec Ideal S4x2x128 .f32)
    (p : Fin 4) (q : Fin 2048) (r : Fin 128) :
    k0_pay1 (F := Ideal) X Eb (ix3 p q r)
      = X (ix3 p q r) * Ideal.div (∑ k : Fin 2, ∑ d : Fin 128, X (ix3 p q d) * Eb (ix3 p k d))
          (Ideal.ofBits .f32 0x40000000#32) := by
  unfold k0_pay1
  refine congrArg (X (ix3 p q r) * ·) ?_
  refine (column_broadcast_apply _ _ p q r).trans ?_
  refine congrArg (Ideal.div · (Ideal.ofBits .f32 0x40000000#32)) ?_
  refine (column_cast_apply _ _ p q 0).trans ?_
  refine (pair_sum_apply _ _ _ _ p q).trans ?_
  refine Finset.sum_congr rfl fun k _ => ?_
  refine (product_apply _ _ p q k).trans ?_
  refine Finset.sum_congr rfl fun d _ => ?_
  show X (ix3 p q d) * shapeCast S4x2x128 Eb shapeCasts_S4x2x128_S4x2x128 (ix3 p k d) = _
  rw [shapeCast_self]

end Cert.KernelIdeal.BlockValue

end
-- ==== Proof.ArrayValue.lean ====
/-
  From blocks to the whole array.

  Grid point `t` (of 16) works on sentences 4t … 4t + 3: its sentence block, its entity block and the
  block it writes back all sit at block index (t, 0, 0), so entry (p, q, r) of a block is entry
  (4t + p, q, r) of its array (and (4t + p, k, d) for the entity rows). The value the body stores at a
  block entry is therefore `weighted` of the whole arrays at the entry's place in the array — the entity
  factor and the sentence factor of each product only change places, which a product of extended reals
  allows —, and the 16 blocks tile the 64 sentences, so the array ends holding `weighted` everywhere.
-/
import proofs.«179374_j72507637891612_2_alg».proof.Proof.Gen.KernelIdeal.Value
import proofs.«179374_j72507637891612_2_alg».proof.Proof.BlockValue
import proofs.«179374_j72507637891612_2_alg».proof.Proof.Spec

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.EntityAttention

/-! ## One block, over variables -/

/-- The place in the sentence array of entry `y` of the block of sentences 4b … 4b + 3. -/
abbrev sentOf (b : Nat) (hb : b < 16) (y : S4x2048x128.Idx) : Sent.Idx := fun a => match a with
  | ⟨0, _⟩ => ⟨b * 4 + (y 0).val, by have h : (y 0).val < 4 := (y 0).isLt; show b * 4 + (y 0).val < 64; omega⟩
  | ⟨1, _⟩ => ⟨(y 1).val, (y 1).isLt⟩
  | ⟨2, _⟩ => ⟨(y 2).val, (y 2).isLt⟩

/-- The place in the entity array of entry `y` of the entity block of sentences 4b … 4b + 3. -/
abbrev entOf (b : Nat) (hb : b < 16) (y : S4x2x128.Idx) : Ent.Idx := fun a => match a with
  | ⟨0, _⟩ => ⟨b * 4 + (y 0).val, by have h : (y 0).val < 4 := (y 0).isLt; show b * 4 + (y 0).val < 64; omega⟩
  | ⟨1, _⟩ => ⟨(y 1).val, (y 1).isLt⟩
  | ⟨2, _⟩ => ⟨(y 2).val, (y 2).isLt⟩

/-- If `X` and `Eb` are the blocks of sentences 4b … 4b + 3 of the arrays `x` and `E`, the body's stored
    value at a block entry is `weighted x E` at the entry's place in the array. -/
theorem stored_eq_weighted (x : Sent.Idx → EReal) (E : Ent.Idx → EReal)
    (X : FVec Ideal S4x2048x128 .f32) (Eb : FVec Ideal S4x2x128 .f32) (b : Nat) (hb : b < 16)
    (hX : ∀ y : S4x2048x128.Idx, X y = x (sentOf b hb y)) (hE : ∀ y : S4x2x128.Idx, Eb y = E (entOf b hb y))
    (j : S4x2048x128.Idx) :
    k0_pay1 (F := Ideal) X Eb j = weighted x E (sentOf b hb j) := by
  obtain ⟨p, q, r, rfl⟩ : ∃ (p : Fin 4) (q : Fin 2048) (r : Fin 128), j = ix3 p q r := ⟨j 0, j 1, j 2, eq_ix3 j⟩
  rw [BlockValue.stored_apply]
  unfold weighted score
  rw [hX]
  refine congrArg (x (sentOf b hb (ix3 p q r)) * Ideal.div · (Ideal.ofBits .f32 0x40000000#32)) ?_
  refine Finset.sum_congr rfl fun k _ => Finset.sum_congr rfl fun d _ => ?_
  rw [hX, hE, mul_comm]
  have e1 : entOf b hb (ix3 p k d) = entAt (sentOf b hb (ix3 p q r)) k d :=
    funext fun a => Fin.ext (by match a with | ⟨0, _⟩ => rfl | ⟨1, _⟩ => rfl | ⟨2, _⟩ => rfl)
  have e2 : sentOf b hb (ix3 p q d) = rowAt (sentOf b hb (ix3 p q r)) d :=
    funext fun a => Fin.ext (by match a with | ⟨0, _⟩ => rfl | ⟨1, _⟩ => rfl | ⟨2, _⟩ => rfl)
  rw [e1, e2]

/-! ## The blocks of the run -/

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps at a grid point, decided over the 16 points: all three windows sit at block
    (t, 0, 0), and the first block index stays below 16. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) < 16 :=
  (by decide +kernel : ∀ t : Fin grid0.N, _)

/-- Every group of four sentences is some point's block. -/
theorem index_onto : ∀ q0 : Fin 16, ∃ t : Fin cfg0.N, win0_2.index t = ![q0.val, 0, 0] :=
  (by decide +kernel : ∀ q0 : Fin 16, ∃ t : Fin grid0.N, win0_2.index t = ![q0.val, 0, 0])

/-- The sentence block at point `t` is the block of sentences 4b … 4b + 3 of the array the region finds, `b`
    the point's block index. -/
theorem sentence_block (c : Dev nD) (t : Fin cfg0.N) (hb : win0_2.index t (0 : Fin 3) < 16) (y : S4x2048x128.Idx) :
    iblk m c 0 t y = V m c main_arg0 (sentOf (win0_2.index t (0 : Fin 3)) hb y) := by
  obtain ⟨e0, e1, e2, -⟩ := index_facts t
  show V m c main_arg0 (((cfg0.win 0).blk t).view.emb y) = V m c main_arg0 _
  refine congrArg (V m c main_arg0) (funext fun a => Fin.ext ?_)
  match a with
  | ⟨0, _⟩ => show win0_0.index t (0 : Fin 3) * 4 + 1 * (y 0).val = win0_2.index t (0 : Fin 3) * 4 + (y 0).val; omega
  | ⟨1, _⟩ => show win0_0.index t (1 : Fin 3) * 2048 + 1 * (y 1).val = (y 1).val; omega
  | ⟨2, _⟩ => show win0_0.index t (2 : Fin 3) * 128 + 1 * (y 2).val = (y 2).val; omega

/-- The entity block at point `t` likewise. -/
theorem entity_block (c : Dev nD) (t : Fin cfg0.N) (hb : win0_2.index t (0 : Fin 3) < 16) (y : S4x2x128.Idx) :
    iblk m c 1 t y = V m c main_v1 (entOf (win0_2.index t (0 : Fin 3)) hb y) := by
  obtain ⟨-, -, -, e0, e1, e2, -⟩ := index_facts t
  show V m c main_v1 (((cfg0.win 1).blk t).view.emb y) = V m c main_v1 _
  refine congrArg (V m c main_v1) (funext fun a => Fin.ext ?_)
  match a with
  | ⟨0, _⟩ => show win0_1.index t (0 : Fin 3) * 4 + 1 * (y 0).val = win0_2.index t (0 : Fin 3) * 4 + (y 0).val; omega
  | ⟨1, _⟩ => show win0_1.index t (1 : Fin 3) * 2 + 1 * (y 1).val = (y 1).val; omega
  | ⟨2, _⟩ => show win0_1.index t (2 : Fin 3) * 128 + 1 * (y 2).val = (y 2).val; omega

/-- What point `t` writes back is block `t` of `weighted` of the arrays the region finds. -/
theorem flushed_eq (c : Dev nD) (t : Fin cfg0.N) :
    (dats m 0 c).flushed 2 t
      = ((cfg0.win 2).blk t).view.read (Elt Ideal) (weighted (V m c main_arg0) (V m c main_v1)) := by
  rw [Value.flushed2]
  unfold out0_2
  rw [View.canon_unit_zero zero_offsets]
  simp only [View.ld_unit_zero (S := S4x2048x128) zero_offsets, View.ld_unit_zero (S := S4x2x128) zero_offsets]
  obtain ⟨-, -, -, -, -, -, f1, f2, hb⟩ := index_facts t
  funext j
  show k0_pay1 (F := Ideal) (iblk m c 0 t) (iblk m c 1 t) j
    = weighted (V m c main_arg0) (V m c main_v1) (((cfg0.win 2).blk t).view.emb j)
  refine (stored_eq_weighted (V m c main_arg0) (V m c main_v1) (iblk m c 0 t) (iblk m c 1 t)
    (win0_2.index t (0 : Fin 3)) hb (sentence_block m c t hb) (entity_block m c t hb) j).trans ?_
  refine congrArg (weighted (V m c main_arg0) (V m c main_v1)) (funext fun a => Fin.ext ?_)
  match a with
  | ⟨0, _⟩ => show win0_2.index t (0 : Fin 3) * 4 + (j 0).val = win0_2.index t (0 : Fin 3) * 4 + 1 * (j 0).val; omega
  | ⟨1, _⟩ => show (j 1).val = win0_2.index t (1 : Fin 3) * 2048 + 1 * (j 1).val; omega
  | ⟨2, _⟩ => show (j 2).val = win0_2.index t (2 : Fin 3) * 128 + 1 * (j 2).val; omega

/-! ## The cover, and the array after the run -/

/-- An index of the array is in point `t`'s block iff each coordinate is in the block's range on its axis. -/
theorem mem_blk (t : Fin cfg0.N) (i : S64x2048x128.Idx) :
    i ∈ ((cfg0.win 2).blk t).view.set ↔ ∀ a : Fin 3, win0_2.index t a * S4x2048x128.size a ≤ (i a).val
      ∧ (i a).val < win0_2.index t a * S4x2048x128.size a + S4x2048x128.size a := by
  show i ∈ ((View.whole main_v2).slice (win0_2.rect t)).set ↔ _
  rw [View.set_slice_whole, Rect.mem_set_unit]
  exact Iff.rfl

/-- Every index of the result array is in the block of the point that works on its sentence's group of four. -/
theorem cover (i : S64x2048x128.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 128 := (i 2).isLt
  obtain ⟨t, ht⟩ := index_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- After the run the result array is `weighted` of the arrays the region finds. -/
theorem final (c : Dev nD) :
    (dats m 0 c).arrAt 2 cfg0.N = weighted (V m c main_arg0) (V m c main_v1) :=
  (dats m 0 c).arrAt_eq_of_cover 2 (weighted (V m c main_arg0) (V m c main_v1)) (fun t _ => flushed_eq m c t) cover

/-- The kernel's run: the result array ends at `weighted` of the sentences as launched and of the entity
    rows the region finds; the arguments end unchanged. -/
theorem run : θ_run defs (onTc (τ := τ) (main (F := Ideal))) ⟨m, fun _ => 0, ρ⟩ fun r => ∀ c : Dev nD,
      r.2.mem ((c : Thread nD τ).loc main_v2)
        = weighted (m ((c : Thread nD τ).loc main_arg0)) (V m c main_v1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (Value.run_blocks m ρ)

end Cert.KernelIdeal.ArrayValue

end
-- ==== Proof.lean ====
/-
  The kernel against its reference, over the extended reals.

  Both programs take 64 sentences of 2048 rows by 128 features and an index array naming two rows of each
  sentence (its entity rows), and return every row scaled by half its score, the score of a row being
  the sum over the sentence's two entity rows of the row's inner product with the entity row:
      result (b, l, d) = x (b, l, d) · ((∑ k < 2, ∑ d' < 128, E (b, k, d') · x (b, l, d')) / 2).
  Both pick the entity rows `E` out of `x` on the host by the same operations; that part is carried as one
  closed function of the two arguments and never opened. The reference then contracts the entity rows
  against all sentences, adds over the two entities, divides by 2 and multiplies; the kernel does the same
  four sentences at a time, with the factors of each product in the other order, the row sums taken as
  a lane sum of the two columns of a batched product, and its operands passed through bf16, which on
  extended reals changes nothing. The only law used is that a product of two extended reals commutes, so
  the precondition is never opened.

  The three frames are the generated ones (the reference's is its generated run with the result dropped);
  the idealization rewrote nothing, so there is nothing to preserve.
-/
import proofs.«179374_j72507637891612_2_alg».proof.Defs
import proofs.«179374_j72507637891612_2_alg».proof.Proof.Gen.Kernel
import proofs.«179374_j72507637891612_2_alg».proof.Proof.Gen.Kernel.Frame
import proofs.«179374_j72507637891612_2_alg».proof.Proof.Gen.KernelIdeal
import proofs.«179374_j72507637891612_2_alg».proof.Proof.Gen.KernelIdeal.Frame
import proofs.«179374_j72507637891612_2_alg».proof.Proof.Gen.KernelIdeal.Value
import proofs.«179374_j72507637891612_2_alg».proof.Proof.Gen.ReferenceIdeal
import proofs.«179374_j72507637891612_2_alg».proof.Proof.Gen.ReferenceIdeal.Run
import proofs.«179374_j72507637891612_2_alg».proof.Proof.Gen.ReferenceIdeal.Read
import proofs.«179374_j72507637891612_2_alg».proof.Proof.Gen.Pre_finite_inputs
import proofs.«179374_j72507637891612_2_alg».proof.Proof.Spec
import proofs.«179374_j72507637891612_2_alg».proof.Proof.RefValue
import proofs.«179374_j72507637891612_2_alg».proof.Proof.EntityRows
import proofs.«179374_j72507637891612_2_alg».proof.Proof.ArrayValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end with the result array at `weighted`
    of the sentences and of the gathered entity rows: the kernel by its blocks, which tile the array, the
    reference by reading its stages at an index. -/
theorem algebraic : Cert.algebraic_KernelIdeal_ReferenceIdeal := by
  intro m ρ m' ρ' _ hagree
  refine ⟨fun c => Cert.EntityAttention.weighted
      (m ((c.tc : Thread Cert.KernelIdeal.nD Cert.KernelIdeal.τ).loc Cert.KernelIdeal.main_arg0))
      (Cert.ReferenceIdeal.Read.val_main_v1 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.ArrayValue.run m ρ)
    exact congrArg (Cert.EntityAttention.weighted _) (Cert.KernelIdeal.EntityRows.entity_rows m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
